-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S4x2048x128 : Shape := ⟨3, ![4, 2048, 128]⟩
abbrev S1x4096x64 : Shape := ⟨3, ![1, 4096, 64]⟩
abbrev S1x2048x128 : Shape := ⟨3, ![1, 2048, 128]⟩
abbrev S4096x64 : Shape := ⟨2, ![4096, 64]⟩
abbrev S64x64 : Shape := ⟨2, ![64, 64]⟩
abbrev S128x128 : Shape := ⟨2, ![128, 128]⟩
abbrev S128x64 : Shape := ⟨2, ![128, 64]⟩
abbrev S2048x128 : Shape := ⟨2, ![2048, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x2048x128, .f32⟩
  | .hbm, ⟨4, _⟩ => ⟨S4x2048x128, .f32⟩
  | .hbm, ⟨5, _⟩ => ⟨S4x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x64_S4x2048x128 : S4x4096x64.ShapeCasts S4x2048x128
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  iota_S128x128_d0_w32 : S128x128.Iotas .tc 32 [0]
  iota_S128x128_d1_w32 : S128x128.Iotas .tc 32 [1]
  natLt_1_32 : 1 < 32
  concatenates_S64x64_S64x64_S128x64_d0 : Shape.Concatenates [S64x64, S64x64] S128x64 0
  concatenates_S128x64_S128x64_S128x128_d1 : Shape.Concatenates [S128x64, S128x64] S128x128 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  shapeCasts_S4x2048x128_S4x4096x64 : S4x2048x128.ShapeCasts S4x4096x64
  dot_S4096x64_S4096x64_S64x64_0_0_1_1_n_n_wf : DotDims.WF S4096x64 S4096x64 S64x64 [0] [0] [1] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .f32 = 32 ∨ (Rect.block (s := S4x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S4x2048x128.size a
  hwx0_3 : ∀ i : grid0.Coords, EltTy.bits .f32 = 32 ∨ (Rect.block (s := S4x2048x128) S1x2048x128.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg1) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Finite.lean ====
/-
  From the precondition to "every entry of the three arguments is a real number".

  The precondition is the conjunction of three statements "every entry has `|x| < +∞`", one per argument. Read at the
  exact-real instance a float is an extended real, `|x|` is `max x (-x)`, the word `0x7F800000` denotes `⊤`,
  and `max x (-x) < ⊤` excludes both `x = ⊤` and `x = ⊥`: what is left is a real number.
-/
import proofs.«109282_j61933428410286_2_alg».proof.Proof.Gen.Pre_finite_inputs
import Idealize.ShloMosaic.PureOps.Ideal
import Idealize.ShloMosaic.Lib.ValueIdx
import Idealize.ShloMosaic.Lib.ReduceAll
import Idealize.ShloMosaic.Lib.Affine

open Idealize.ShloMosaic

namespace Cert.Finite

open Cert.Pre_finite_inputs

/-- The rank-0 shape has one index. -/
instance : Subsingleton S_.Idx := ⟨fun a b => funext fun d => d.elim0⟩

/-- The single-precision word `0x7F800000` denotes `+∞`. -/
theorem ofBits_inf : Ideal.ofBits .f32 0x7F800000#32 = (⊤ : EReal) := by
  simp [Ideal.ofBits, Ideal.ieee]

/-- An extended real whose absolute value `max x (-x)` is below `⊤` is a real number:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The entrywise comparison `|x| < +∞` that came out true says `x` is a real number. -/
theorem real_of_cmp (x : Ideal .f32)
    (h : FloatOps.cmpf (F := Ideal) .olt (FloatOps.hostAbsf x) (Ideal.ofBits .f32 0x7F800000#32) = 1#1) :
    ∃ r : ℝ, x = (r : EReal) := by
  apply real_of_abs_lt_top
  rw [ofBits_inf] at h
  change BitVec.ofBool (decide (max x (-x) < (⊤ : EReal))) = 1#1 at h
  by_contra hn
  rw [decide_eq_false hn] at h
  exact absurd h (by decide)

/-- One reduction by `and` of the entrywise `|x| < +∞` that came out true: every entry of `x` is a real number. -/
theorem real_of_all [Facts] (x : FVec Ideal S4x4096x64 .f32) (c : IVec S_ 1)
    (h : Host.reduce IntOp.andi
          (cmpf .olt (Host.absf x)
            (broadcastInDim S4x4096x64 ![] Facts.bcast_S_S4x4096x64 (constant (F := Ideal) S_ .f32 0x7F800000#32)))
          c Facts.reducesTo_S4x4096x64_S_d0_1_2 Facts.h_S_ ValueIdx.ix0 = 1#1) :
    ∀ i, ∃ r : ℝ, x i = (r : EReal) := fun i =>
  real_of_cmp (x i) (Host.reduce_andi_all _ _ _ _ _ h i)

theorem real_of_pre [Cert.Pre_finite_inputs.Facts] (x0 x1 x2 : FVec Ideal Cert.Pre_finite_inputs.S4x4096x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 _ h0', real_of_all x1 _ h1, real_of_all x2 _ h2⟩

end Cert.Finite
-- ==== Proof.Spec.lean ====
/-
  The mathematics of the certificate, with no program in sight.

  Three arrays `q k v` of shape [4, 4096, 64] over the extended reals. The reference computes, per batch `b`,
  `(Q Kᵀ) V`: `out[b,s,d] = ∑ j, (∑ e, q[b,s,e] · k[b,j,e]) · v[b,j,d]`. The kernel computes `Q (Kᵀ V)`: first the small
  matrix `KV[e,d] = ∑ j, k[b,j,e] · v[b,j,d]`, then `∑ e, q[b,s,e] · KV[e,d]` — but on `q` re-laid as [4, 2048, 128]
  (two consecutive rows side by side) against the block-diagonal 128 × 128 matrix `diag(KV, KV)`, the result re-laid
  back. Here: the two re-layings read at an index, the block-diagonal product undone (only commutative-monoid laws and
  `x · 0 = 0`, so it holds with infinities), and the re-association `(Q Kᵀ) V = Q (Kᵀ V)`, which distributes products over
  sums and therefore is proved for entries that are real numbers.
-/
import Idealize.ShloMosaic.PureOps.Ideal
import Idealize.ShloMosaic.Lib.ValueIdx
import Idealize.ShloMosaic.Lib.Pipeline.Value

noncomputable section

open scoped BigOperators

namespace Cert.Spec

open Idealize.ShloMosaic Idealize.ShloMosaic.ValueIdx

/-- The arguments' shape, and the shape with two consecutive rows packed side by side. -/
abbrev SQ : Shape := ⟨3, ![4, 4096, 64]⟩
abbrev SP : Shape := ⟨3, ![4, 2048, 128]⟩

/-- `Kᵀ V` of batch `b`: a 64 × 64 matrix. -/
def KV (k v : SQ.Idx → EReal) (b : Fin 4) (e d : Fin 64) : EReal := ∑ j : Fin 4096, k (ix3 b j e) * v (ix3 b j d)

/-- `Q (Kᵀ V)`, by coordinates and as an array. -/
def Gc (q k v : SQ.Idx → EReal) (b : Fin 4) (s : Fin 4096) (d : Fin 64) : EReal := ∑ e : Fin 64, q (ix3 b s e) * KV k v b e d
def G (q k v : SQ.Idx → EReal) : SQ.Idx → EReal := fun i => Gc q k v (i 0) (i 1) (i 2)

theorem G_ix3 (q k v : SQ.Idx → EReal) (b : Fin 4) (s : Fin 4096) (d : Fin 64) : G q k v (ix3 b s d) = Gc q k v b s d := rfl

/-- The packed array `p` against the block-diagonal matrix `diag(KV, KV)`: entry `(n, c)` of that matrix is
    `KV[n mod 64, c mod 64]` when `n` and `c` lie in the same half and zero otherwise. -/
def Hc (p : SP.Idx → EReal) (k v : SQ.Idx → EReal) (b : Fin 4) (r : Fin 2048) (c : Fin 128) : EReal :=
  ∑ n : Fin 128, p (ix3 b r n) *
    (if n.val / 64 = c.val / 64 then KV k v b ⟨n.val % 64, Nat.mod_lt _ (by norm_num)⟩ ⟨c.val % 64, Nat.mod_lt _ (by norm_num)⟩ else 0)
def H (p : SP.Idx → EReal) (k v : SQ.Idx → EReal) : SP.Idx → EReal := fun i => Hc p k v (i 0) (i 1) (i 2)

theorem H_ix3 (p : SP.Idx → EReal) (k v : SQ.Idx → EReal) (b : Fin 4) (r : Fin 2048) (c : Fin 128) : H p k v (ix3 b r c) = Hc p k v b r c := rfl

/-! ## The two re-layings at an index -/

/-- Packing: entry `(b, r, n)` of the packed array is entry `(b, 2r + n / 64, n mod 64)` of the array. -/
theorem pack_apply {α : Type} (x : SQ.Idx → α) (h : SQ.ShapeCasts SP) (b : Fin 4) (r : Fin 2048) (n : Fin 128) :
    shapeCast SP x h (ix3 b r n) = x (ix3 b ⟨2 * r.val + n.val / 64, by omega⟩ ⟨n.val % 64, Nat.mod_lt _ (by norm_num)⟩) := by
  refine shapeCast_apply x h _ _ ?_
  rw [Shape.rowMajor_val_three, Shape.rowMajor_val_three]
  show ((b.val * 4096 + (2 * r.val + n.val / 64)) * 64 + n.val % 64) = ((b.val * 2048 + r.val) * 128 + n.val)
  omega

/-- Unpacking: entry `(b, s, d)` of the unpacked array is entry `(b, s / 2, (s mod 2) · 64 + d)` of the packed one. -/
theorem unpack_apply {α : Type} (y : SP.Idx → α) (h : SP.ShapeCasts SQ) (b : Fin 4) (s : Fin 4096) (d : Fin 64) :
    shapeCast SQ y h (ix3 b s d) = y (ix3 b ⟨s.val / 2, by omega⟩ ⟨s.val % 2 * 64 + d.val, by omega⟩) := by
  refine shapeCast_apply y h _ _ ?_
  rw [Shape.rowMajor_val_three, Shape.rowMajor_val_three]
  show ((b.val * 2048 + s.val / 2) * 128 + (s.val % 2 * 64 + d.val)) = ((b.val * 4096 + s.val) * 64 + d.val)
  omega

/-! ## The block-diagonal product undone -/

/-- A sum over 128 places is the sum over the first 64 plus the sum over the last 64. -/
theorem sum_halves (F : Fin 128 → EReal) :
    ∑ n : Fin 128, F n = ∑ e : Fin 64, F ⟨e.val, by omega⟩ + ∑ e : Fin 64, F ⟨64 + e.val, by omega⟩ :=
  Fin.sum_univ_add (a := 64) (b := 64) F

/-- One place of the packed product. Place `n = 64 x + e` of the packed row `s / 2` holds `q[b, 2 (s / 2) + x, e]`, and row `n`
    of `diag(KV, KV)` at column `(s mod 2) · 64 + d` holds `KV[e, d]` when `x = s mod 2` and zero otherwise: so the place
    contributes `q[b, s, e] · KV[e, d]` in half `s mod 2`, and nothing in the other half. -/
theorem place_eq (q k v : SQ.Idx → EReal) (b : Fin 4) (s : Fin 4096) (d e : Fin 64) (x : ℕ) (hx : x < 2) (n : Fin 128)
    (hn : n.val = 64 * x + e.val) :
    q (ix3 b ⟨2 * (s.val / 2) + n.val / 64, by omega⟩ ⟨n.val % 64, Nat.mod_lt _ (by norm_num)⟩) *
        (if n.val / 64 = (s.val % 2 * 64 + d.val) / 64 then
          KV k v b ⟨n.val % 64, Nat.mod_lt _ (by norm_num)⟩ ⟨(s.val % 2 * 64 + d.val) % 64, Nat.mod_lt _ (by norm_num)⟩ else 0)
      = if x = s.val % 2 then q (ix3 b s e) * KV k v b e d else 0 := by
  have he := e.isLt
  have hd := d.isLt
  have h1 : n.val / 64 = x := by omega
  have h2 : (s.val % 2 * 64 + d.val) / 64 = s.val % 2 := by omega
  have h3 : (⟨n.val % 64, Nat.mod_lt _ (by norm_num)⟩ : Fin 64) = e := Fin.ext (by show n.val % 64 = e.val; omega)
  have h4 : (⟨(s.val % 2 * 64 + d.val) % 64, Nat.mod_lt _ (by norm_num)⟩ : Fin 64) = d :=
    Fin.ext (by show (s.val % 2 * 64 + d.val) % 64 = d.val; omega)
  rw [h3, h4, h2]
  by_cases hxs : x = s.val % 2
  · have h5 : (⟨2 * (s.val / 2) + n.val / 64, by omega⟩ : Fin 4096) = s :=
      Fin.ext (by show 2 * (s.val / 2) + n.val / 64 = s.val; omega)
    rw [h5, if_pos (h1.trans hxs), if_pos hxs]
  · rw [if_neg (fun h => hxs (h1.symm.trans h)), if_neg hxs, mul_zero]

/-- The packed row `s / 2` against `diag(KV, KV)`, read at column `(s mod 2) · 64 + d`, is row `s` against `KV`, read at
    column `d`: of the 128 places only the 64 of half `s mod 2` contribute. -/
theorem Hc_pack (q k v : SQ.Idx → EReal) (h : SQ.ShapeCasts SP) (b : Fin 4) (s : Fin 4096) (d : Fin 64) :
    Hc (shapeCast SP q h) k v b ⟨s.val / 2, by omega⟩ ⟨s.val % 2 * 64 + d.val, by omega⟩ = Gc q k v b s d := by
  unfold Hc Gc
  simp only [pack_apply]
  rw [sum_halves]
  refine (congrArg₂ (· + ·)
    (Finset.sum_congr rfl fun e _ => place_eq q k v b s d e 0 (by norm_num) ⟨e.val, by omega⟩ (by simp))
    (Finset.sum_congr rfl fun e _ => place_eq q k v b s d e 1 (by norm_num) ⟨64 + e.val, by omega⟩ (by simp))).trans ?_
  rcases Nat.mod_two_eq_zero_or_one s.val with h2 | h2
  · rw [h2]; simp
  · rw [h2]; simp

/-- The packed computation, unpacked, is `Q (Kᵀ V)`. -/
theorem unpack_H_pack (q k v : SQ.Idx → EReal) (h : SQ.ShapeCasts SP) (h' : SP.ShapeCasts SQ) :
    shapeCast SQ (H (shapeCast SP q h) k v) h' = G q k v := by
  funext i
  obtain ⟨b, s, d, rfl⟩ : ∃ (b : Fin 4) (s : Fin 4096) (d : Fin 64), i = ix3 b s d := ⟨i 0, i 1, i 2, eq_ix3 i⟩
  rw [unpack_apply, H_ix3, G_ix3]
  exact Hc_pack q k v h b s d

/-! ## Re-association, for real entries -/

/-- The coercion of the reals into the extended reals commutes with finite sums. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- `(a Bᵀ) c = a (Bᵀ c)` for real vectors `a`, `c` and a real matrix `B`, read in the extended reals. -/
theorem reassoc {J E : Type*} [Fintype J] [Fintype E] (a : E → ℝ) (B : J → E → ℝ) (c : J → ℝ) :
    ∑ j, (∑ e, (a e : EReal) * (B j e : EReal)) * (c j : EReal) = ∑ e, (a e : EReal) * ∑ j, (B j e : EReal) * (c j : EReal) := by
  simp only [← EReal.coe_mul, ← coe_sum]
  refine congrArg _ ?_
  simp only [Finset.sum_mul, Finset.mul_sum]
  rw [Finset.sum_comm]
  exact Finset.sum_congr rfl fun e _ => Finset.sum_congr rfl fun j _ => by ring

/-- The reference's `(Q Kᵀ) V` is `Q (Kᵀ V)` when every entry of the three arrays is a real number. -/
theorem ref_eq_Gc (q k v : SQ.Idx → EReal) (hq : ∀ i, ∃ r : ℝ, q i = (r : EReal)) (hk : ∀ i, ∃ r : ℝ, k i = (r : EReal))
    (hv : ∀ i, ∃ r : ℝ, v i = (r : EReal)) (b : Fin 4) (s : Fin 4096) (d : Fin 64) :
    ∑ j : Fin 4096, (∑ e : Fin 64, q (ix3 b s e) * k (ix3 b j e)) * v (ix3 b j d) = Gc q k v b s d := by
  choose qr hqr using hq
  choose kr hkr using hk
  choose vr hvr using hv
  unfold Gc KV
  simp only [hqr, hkr, hvr]
  exact reassoc (fun e => qr (ix3 b s e)) (fun j e => kr (ix3 b j e)) (fun j => vr (ix3 b j d))

end Cert.Spec

end
-- ==== Proof.RefValue.lean ====
/-
  The reference's result, read at an index: `(Q Kᵀ) V`, which for real entries is `Q (Kᵀ V)`.
-/
import proofs.«109282_j61933428410286_2_alg».proof.Proof.Gen.ReferenceIdeal.Read
import proofs.«109282_j61933428410286_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The two contractions of the reference, entry `(b, s, d)`: over `j` of (the contraction over `e` of
    `q[b,s,e] · k[b,j,e]`) times `v[b,j,d]`; with real entries this is `Q (Kᵀ V)`. -/
theorem val_eq_G (q k v : S4x4096x64.Idx → EReal) (hq : ∀ i, ∃ r : ℝ, q i = (r : EReal)) (hk : ∀ i, ∃ r : ℝ, k i = (r : EReal))
    (hv : ∀ i, ∃ r : ℝ, v i = (r : EReal)) :
    val_main_v1 (F := Ideal) q k v = Cert.Spec.G q k v := by
  funext i
  obtain ⟨b, s, d, rfl⟩ : ∃ (b : Fin 4) (s : Fin 4096) (d : Fin 64), i = ix3 b s d := ⟨i 0, i 1, i 2, eq_ix3 i⟩
  rw [val_main_v1_apply, Cert.Spec.G_ix3, ← Cert.Spec.ref_eq_Gc q k v hq hk hv b s d]
  refine Finset.sum_congr rfl fun j _ => ?_
  rw [val_main_v0_apply]
  have e1 : ridx_main_v1 (ix3 b s d) j = ix3 b j d :=
    funext fun a => Fin.ext (by match a with | ⟨0, _⟩ => rfl | ⟨1, _⟩ => rfl | ⟨2, _⟩ => rfl)
  have e2 : ∀ e : Fin 64, lidx_main_v0 (lidx_main_v1 (ix3 b s d) j) e = ix3 b s e := fun e =>
    funext fun a => Fin.ext (by match a with | ⟨0, _⟩ => rfl | ⟨1, _⟩ => rfl | ⟨2, _⟩ => rfl)
  have e3 : ∀ e : Fin 64, ridx_main_v0 (lidx_main_v1 (ix3 b s d) j) e = ix3 b j e := fun e =>
    funext fun a => Fin.ext (by match a with | ⟨0, _⟩ => rfl | ⟨1, _⟩ => rfl | ⟨2, _⟩ => rfl)
  simp only [e1, e2, e3]

end Cert.ReferenceIdeal.RefValue

end
-- ==== Proof.BlockMask.lean ====
import proofs.«109282_j61933428410286_2_alg».proof.Proof.Gen.KernelIdeal.Skeleton
import Idealize.ShloMosaic.Lib.ValueIdx
import Idealize.ShloMosaic.Lib.Affine

/-!
# The block-diagonal mask

The kernel body compares, entry by entry, the floor quotient by 64 of the row number with the floor
quotient by 64 of the column number of a 128 x 128 array. Both quotients are computed on signed 32-bit
words: the quotient rounded toward zero, less one when the dividend's sign differs from the divisor's
and the remainder is not zero. On the numbers 0 … 127 this is the natural-number quotient, so the mask
is one exactly on the two diagonal 64 x 64 blocks.
-/

noncomputable section

namespace Cert.KernelIdeal.BlockMask

open Cert.KernelIdeal Cert.KernelIdeal.Gen Idealize.ShloMosaic Idealize.ShloMosaic.ValueIdx

/-- The mask "row / 64 = column / 64" as the kernel body computes it: the row quotient against the
    column quotient, the latter still spelled as the select around the truncated quotient. -/
def mask : IVec S128x128 1 :=
  cmpi .eq k0_pay3
    (select (andi (cmpi .ne k0_pay5 (broadcast S128x128 (Scalar.subi (Scalar.extui (Scalar.cmpi .sgt 64#32 0#32)) (Scalar.extui (Scalar.cmpi .slt 64#32 0#32)))))
                  (cmpi .ne (remsi (iota .tc S128x128 32 [1] iota_S128x128_d1_w32) (broadcast S128x128 64#32)) (broadcast S128x128 0#32)))
            (subi k0_pay4 (broadcast S128x128 1#32)) k0_pay4)

/-- The floor division by 64 of a signed 32-bit word: the quotient rounded toward zero, less one when
    the sign of the dividend differs from the sign of 64 and the remainder is not zero. -/
def fdiv64 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- Every operation of the row chain acts entry by entry, so the row quotient at an index is `fdiv64`
    of the row number's word. -/
theorem pay3_eq (i : S128x128.Idx) :
    k0_pay3 i = fdiv64 (iota .tc S128x128 32 [0] iota_S128x128_d0_w32 i) := rfl

/-- The mask at an index compares `fdiv64` of the row number's word with `fdiv64` of the column
    number's word: the column chain is the same scalar function, entry by entry. -/
theorem mask_eq (i : S128x128.Idx) :
    mask i = IntOp.cmpi .eq (fdiv64 (iota .tc S128x128 32 [0] iota_S128x128_d0_w32 i))
      (fdiv64 (iota .tc S128x128 32 [1] iota_S128x128_d1_w32 i)) := rfl

/-- The row numbering at (p, q) is the word of p. -/
theorem iota0_apply (p q : Fin 128) :
    iota .tc S128x128 32 [0] iota_S128x128_d0_w32 (ix2 p q) = BitVec.ofNat 32 p.val := by
  simp [iota]

/-- The column numbering at (p, q) is the word of q. -/
theorem iota1_apply (p q : Fin 128) :
    iota .tc S128x128 32 [1] iota_S128x128_d1_w32 (ix2 p q) = BitVec.ofNat 32 q.val := by
  simp [iota]

/-- On 0 … 127 the signed floor division by 64 is the quotient of natural numbers: the dividend is
    not negative and the divisor is positive, so the signs agree, nothing is subtracted, and the
    truncated quotient is the floor. Checked on each of the 128 words. -/
theorem fdiv64_ofNat : ∀ p : Fin 128, fdiv64 (BitVec.ofNat 32 p.val) = BitVec.ofNat 32 (p.val / 64) := by
  decide +kernel

/-- Two numbers below 2 have equal 32-bit words exactly when they are equal. -/
theorem cmpi_eq_small : ∀ a b : Fin 2,
    IntOp.cmpi .eq (BitVec.ofNat 32 a.val) (BitVec.ofNat 32 b.val) = if a.val = b.val then 1#1 else 0#1 := by
  decide

/-- The mask at (p, q) is one exactly when p and q lie in the same block of 64. -/
theorem mask_apply (p q : Fin 128) :
    mask (ix2 p q) = if p.val / 64 = q.val / 64 then 1#1 else 0#1 := by
  rw [mask_eq, iota0_apply, iota1_apply, fdiv64_ofNat, fdiv64_ofNat]
  exact cmpi_eq_small ⟨p.val / 64, by omega⟩ ⟨q.val / 64, by omega⟩

/-- The value the kernel body stores, at the arguments its caller passes: the loaded block times the
    128 x 128 array that repeats the 64 x 64 product in each quadrant, kept where `mask` is one and
    zero elsewhere. Holds by unfolding, for every float instance. -/
theorem k0_pay1_eq_mask {F : FTy → Type} [FloatOps F] (v6 : FVec F S64x64 .f32) (v62 : Vec F S1x2048x128 .f32) :
    k0_pay1 v6 (iota .tc S128x128 32 [1] iota_S128x128_d1_w32) k0_pay3 64#32 k0_pay4 k0_pay5 v62 =
      shapeCast S1x2048x128
        (matmul dot_S2048x128_S128x128_S2048x128_1_0_0_1_n_n (some .fp32)
          (shapeCast S2048x128 v62 shapeCasts_S1x2048x128_S2048x128)
          (select mask
            (concatenate S128x128 1
              [⟨S128x64, concatenate S128x64 0 [⟨S64x64, v6⟩, ⟨S64x64, v6⟩] concatenates_S64x64_S64x64_S128x64_d0⟩,
               ⟨S128x64, concatenate S128x64 0 [⟨S64x64, v6⟩, ⟨S64x64, v6⟩] concatenates_S64x64_S64x64_S128x64_d0⟩]
              concatenates_S128x64_S128x64_S128x128_d1)
            (broadcast S128x128 (Scalar.ofBits .f32 0x00000000#32)))
          (constant S2048x128 .f32 0x00000000#32))
        shapeCasts_S2048x128_S1x2048x128 := rfl

end Cert.KernelIdeal.BlockMask

end
-- ==== Proof.Payload.lean ====
/-
  What the kernel body computes, read at an index (at the ideal values, where a change of float format is the identity).

  The body first forms the 64 × 64 matrix `KV[e, d] = ∑ j, K[j, e] · V[j, d]` of the point's `K` and `V` blocks, tiles it to
  128 × 128 (entry `(n, c)` of the tiling is `KV[n mod 64, c mod 64]`), keeps the two diagonal 64 × 64 blocks and puts zero
  elsewhere, and multiplies the point's packed `Q` block [2048, 128] by that block-diagonal matrix.
-/
import proofs.«109282_j61933428410286_2_alg».proof.Proof.Gen.KernelIdeal.Skeleton
import proofs.«109282_j61933428410286_2_alg».proof.Proof.BlockMask
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The first product: `Kᵀ V` of the point's blocks -/

/-- A block [1, 4096, 64] with its unit axis cast away, at `(j, e)`, is the block at `(0, j, e)`. -/
theorem drop_apply {α : Type} (x : S1x4096x64.Idx → α) (h : S1x4096x64.ShapeCasts S4096x64) (i : S4096x64.Idx) (j : Fin 4096) (e : Fin 64)
    (h0 : (i 0).val = j.val) (h1 : (i 1).val = e.val) :
    shapeCast S4096x64 x h i = x (ix3 (0 : Fin 1) j e) := by
  refine shapeCast_apply x h _ _ ?_
  rw [Shape.rowMajor_val_three, Shape.rowMajor_val_two, h0, h1]
  show ((0 * 4096 + j.val) * 64 + e.val) = j.val * 64 + e.val
  omega

/-- The first matrix product at `(e, d)`: the contraction over the 4096 rows of the `K` and `V` blocks. -/
theorem pay2_apply (x0 x1 : Vec Ideal S1x4096x64 .f32) (e d : Fin 64) :
    k0_pay2 (F := Ideal) x0 x1 (ix2 e d) = ∑ j : Fin 4096, x0 (ix3 (0 : Fin 1) j e) * x1 (ix3 (0 : Fin 1) j d) := by
  unfold k0_pay2
  simp only [matmul]
  rw [Ideal.matmul_constant_zero_apply,
    ← Equiv.sum_comp (contrEquiv1 dot_S4096x64_S4096x64_S64x64_0_0_1_1_n_n 4096 rfl rfl).symm]
  refine Finset.sum_congr rfl fun j _ => ?_
  have hk := contrEquiv1_symm_val dot_S4096x64_S4096x64_S64x64_0_0_1_1_n_n 4096 rfl rfl j
  have l0 := (dot_S4096x64_S4096x64_S64x64_0_0_1_1_n_n.lhsIdx_val_of_single rfl (ix2 e d)
    ((contrEquiv1 dot_S4096x64_S4096x64_S64x64_0_0_1_1_n_n 4096 rfl rfl).symm j)).trans hk
  have r0 := (dot_S4096x64_S4096x64_S64x64_0_0_1_1_n_n.rhsIdx_val_of_single rfl (ix2 e d)
    ((contrEquiv1 dot_S4096x64_S4096x64_S64x64_0_0_1_1_n_n 4096 rfl rfl).symm j)).trans hk
  have l1 : (dot_S4096x64_S4096x64_S64x64_0_0_1_1_n_n.lhsIdx (ix2 e d)
      ((contrEquiv1 dot_S4096x64_S4096x64_S64x64_0_0_1_1_n_n 4096 rfl rfl).symm j) 1).val = e.val := by
    unfold DotDims.lhsIdx
    rw [dif_neg (show ¬(1 : Fin S4096x64.rank) ∈ dot_S4096x64_S4096x64_S64x64_0_0_1_1_n_n.lhsBatch by decide),
      dif_pos (show (1 : Fin S4096x64.rank) ∈ dot_S4096x64_S4096x64_S64x64_0_0_1_1_n_n.lhsNonContracting by decide)]
    rfl
  have r1 : (dot_S4096x64_S4096x64_S64x64_0_0_1_1_n_n.rhsIdx (ix2 e d)
      ((contrEquiv1 dot_S4096x64_S4096x64_S64x64_0_0_1_1_n_n 4096 rfl rfl).symm j) 1).val = d.val := by
    unfold DotDims.rhsIdx
    rw [dif_neg (show ¬(1 : Fin S4096x64.rank) ∈ dot_S4096x64_S4096x64_S64x64_0_0_1_1_n_n.rhsBatch by decide),
      dif_pos (show (1 : Fin S4096x64.rank) ∈ dot_S4096x64_S4096x64_S64x64_0_0_1_1_n_n.rhsNonContracting by decide)]
    rfl
  exact congrArg₂ (· * ·) (drop_apply x0 _ _ j e l0 l1) (drop_apply x1 _ _ j d r0 r1)

/-! ## The tiling and the block-diagonal matrix -/

/-- Two copies of a 64 × 64 matrix stacked: row `n` of the stack is row `n mod 64`. -/
theorem stack_apply {α : Type} (w : S64x64.Idx → α) (h : Shape.Concatenates [S64x64, S64x64] S128x64 0) (n : Fin 128) (d : Fin 64) :
    concatenate S128x64 0 [⟨S64x64, w⟩, ⟨S64x64, w⟩] h (ix2 n d) = w (ix2 (⟨n.val % 64, Nat.mod_lt _ (by norm_num)⟩ : Fin 64) d) := by
  by_cases hn : n.val < 64
  · refine concatenate_pair_apply_left 0 w w h (ix2 n d) rfl _ fun b => ?_
    match b with
    | ⟨0, _⟩ => exact Nat.mod_eq_of_lt hn
    | ⟨1, _⟩ => rfl
  · refine concatenate_pair_apply_right 0 w w h (ix2 n d) rfl rfl _ (fun b hb => ?_) ?_
    · match b with
      | ⟨0, _⟩ => exact absurd rfl hb
      | ⟨1, _⟩ => rfl
    · show n.val % 64 + 64 = n.val
      have := n.isLt
      omega

/-- Two copies of a 128 × 64 matrix side by side: column `c` of the pair is column `c mod 64`. -/
theorem pair_apply {α : Type} (w : S128x64.Idx → α) (h : Shape.Concatenates [S128x64, S128x64] S128x128 1) (n c : Fin 128) :
    concatenate S128x128 1 [⟨S128x64, w⟩, ⟨S128x64, w⟩] h (ix2 n c) = w (ix2 n (⟨c.val % 64, Nat.mod_lt _ (by norm_num)⟩ : Fin 64)) := by
  by_cases hc : c.val < 64
  · refine concatenate_pair_apply_left 1 w w h (ix2 n c) rfl _ fun b => ?_
    match b with
    | ⟨0, _⟩ => rfl
    | ⟨1, _⟩ => exact Nat.mod_eq_of_lt hc
  · refine concatenate_pair_apply_right 1 w w h (ix2 n c) rfl rfl _ (fun b hb => ?_) ?_
    · match b with
      | ⟨0, _⟩ => rfl
      | ⟨1, _⟩ => exact absurd rfl hb
    · show c.val % 64 + 64 = c.val
      have := c.isLt
      omega

/-- A packed block [1, 2048, 128] with its unit axis cast away, at `(r, n)`, is the block at `(0, r, n)`. -/
theorem drop2_apply {α : Type} (x : S1x2048x128.Idx → α) (h : S1x2048x128.ShapeCasts S2048x128) (i : S2048x128.Idx) (r : Fin 2048) (n : Fin 128)
    (h0 : (i 0).val = r.val) (h1 : (i 1).val = n.val) :
    shapeCast S2048x128 x h i = x (ix3 (0 : Fin 1) r n) := by
  refine shapeCast_apply x h _ _ ?_
  rw [Shape.rowMajor_val_three, Shape.rowMajor_val_two, h0, h1]
  show ((0 * 2048 + r.val) * 128 + n.val) = r.val * 128 + n.val
  omega

/-- The value the body stores, at `(0, r, c)`: row `r` of the packed block against column `c` of the block-diagonal matrix
    built from `w`. -/
theorem pay1_apply (w : FVec Ideal S64x64 .f32) (x2 : Vec Ideal S1x2048x128 .f32) (r : Fin 2048) (c : Fin 128) :
    k0_pay1 (F := Ideal) w (iota .tc S128x128 32 [1] iota_S128x128_d1_w32) k0_pay3 64#32 k0_pay4 k0_pay5 x2 (ix3 (0 : Fin 1) r c)
      = ∑ n : Fin 128, x2 (ix3 (0 : Fin 1) r n) *
          (if n.val / 64 = c.val / 64 then
            w (ix2 (⟨n.val % 64, Nat.mod_lt _ (by norm_num)⟩ : Fin 64) (⟨c.val % 64, Nat.mod_lt _ (by norm_num)⟩ : Fin 64)) else 0) := by
  rw [BlockMask.k0_pay1_eq_mask]
  refine (shapeCast_apply _ _ _ (ix2 r c) ?_).trans ?_
  · rw [Shape.rowMajor_val_three, Shape.rowMajor_val_two]
    show r.val * 128 + c.val = (0 * 2048 + r.val) * 128 + c.val
    omega
  simp only [matmul]
  rw [Ideal.matmul_constant_zero_apply,
    ← Equiv.sum_comp (contrEquiv1 dot_S2048x128_S128x128_S2048x128_1_0_0_1_n_n 128 rfl rfl).symm]
  refine Finset.sum_congr rfl fun n _ => ?_
  have hk := contrEquiv1_symm_val dot_S2048x128_S128x128_S2048x128_1_0_0_1_n_n 128 rfl rfl n
  have l1 := (dot_S2048x128_S128x128_S2048x128_1_0_0_1_n_n.lhsIdx_val_of_single rfl (ix2 r c)
    ((contrEquiv1 dot_S2048x128_S128x128_S2048x128_1_0_0_1_n_n 128 rfl rfl).symm n)).trans hk
  have r0 := (dot_S2048x128_S128x128_S2048x128_1_0_0_1_n_n.rhsIdx_val_of_single rfl (ix2 r c)
    ((contrEquiv1 dot_S2048x128_S128x128_S2048x128_1_0_0_1_n_n 128 rfl rfl).symm n)).trans hk
  have l0 : (dot_S2048x128_S128x128_S2048x128_1_0_0_1_n_n.lhsIdx (ix2 r c)
      ((contrEquiv1 dot_S2048x128_S128x128_S2048x128_1_0_0_1_n_n 128 rfl rfl).symm n) 0).val = r.val := by
    unfold DotDims.lhsIdx
    rw [dif_neg (show ¬(0 : Fin S2048x128.rank) ∈ dot_S2048x128_S128x128_S2048x128_1_0_0_1_n_n.lhsBatch by decide),
      dif_pos (show (0 : Fin S2048x128.rank) ∈ dot_S2048x128_S128x128_S2048x128_1_0_0_1_n_n.lhsNonContracting by decide)]
    rfl
  have r1 : (dot_S2048x128_S128x128_S2048x128_1_0_0_1_n_n.rhsIdx (ix2 r c)
      ((contrEquiv1 dot_S2048x128_S128x128_S2048x128_1_0_0_1_n_n 128 rfl rfl).symm n) 1).val = c.val := by
    unfold DotDims.rhsIdx
    rw [dif_neg (show ¬(1 : Fin S128x128.rank) ∈ dot_S2048x128_S128x128_S2048x128_1_0_0_1_n_n.rhsBatch by decide),
      dif_pos (show (1 : Fin S128x128.rank) ∈ dot_S2048x128_S128x128_S2048x128_1_0_0_1_n_n.rhsNonContracting by decide)]
    rfl
  refine congrArg₂ (· * ·) (drop2_apply x2 _ _ r n l0 l1) ?_
  -- the block-diagonal matrix at (n, c)
  have hi : dot_S2048x128_S128x128_S2048x128_1_0_0_1_n_n.rhsIdx (ix2 r c)
      ((contrEquiv1 dot_S2048x128_S128x128_S2048x128_1_0_0_1_n_n 128 rfl rfl).symm n) = ix2 n c :=
    funext fun a => Fin.ext (by
      match a with
      | ⟨0, _⟩ => exact r0
      | ⟨1, _⟩ => exact r1)
  rw [hi, select_apply, BlockMask.mask_apply, pair_apply, stack_apply]
  by_cases hnc : n.val / 64 = c.val / 64
  · rw [if_pos hnc, if_pos hnc, select_one]
  · rw [if_neg hnc, if_neg hnc, select_zero]
    exact Ideal.ofBits_zero_f32

end Cert.KernelIdeal.Payload

end
-- ==== Proof.KernelValue.lean ====
/-
  What the kernel's program leaves in its result array.

  The grid has one point per batch `t`; the point's blocks are batch `t` of `K`, of `V`, of the packed `Q` and of the packed
  result, each a whole [1, ·, ·] slab. So what point `t` writes back is slab `t` of ONE function of the arrays the region
  finds: the packed `Q` against the block-diagonal matrix of `Kᵀ V` (`Spec.H`). The four slabs cover the packed result, the
  host line before the region packs `Q`, the host line after it unpacks the result: `Q (Kᵀ V)` (`Spec.G`).
-/
import proofs.«109282_j61933428410286_2_alg».proof.Proof.Gen.KernelIdeal.Frame
import proofs.«109282_j61933428410286_2_alg».proof.Proof.Payload
import proofs.«109282_j61933428410286_2_alg».proof.Proof.Spec
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- What the body leaves in the result's buffer, at `(0, r, c)`, from the point's three input blocks. -/
theorem out_apply (x0 x1 : Vec Ideal S1x4096x64 .f32) (x2 : Vec Ideal S1x2048x128 .f32) (r : Fin 2048) (cc : Fin 128) :
    out0_3 x0 x1 x2 (ix3 (0 : Fin 1) r cc)
      = ∑ n : Fin 128, x2 (ix3 (0 : Fin 1) r n) *
          (if n.val / 64 = cc.val / 64 then
            ∑ j : Fin 4096, x0 (ix3 (0 : Fin 1) j (⟨n.val % 64, Nat.mod_lt _ (by norm_num)⟩ : Fin 64))
              * x1 (ix3 (0 : Fin 1) j (⟨cc.val % 64, Nat.mod_lt _ (by norm_num)⟩ : Fin 64)) else 0) := by
  unfold out0_3
  rw [View.canon_unit_zero hz]
  simp only [View.ld_unit_zero (S := S1x4096x64) hz, View.ld_unit_zero (S := S1x2048x128) hz]
  rw [Payload.pay1_apply]
  simp only [Payload.pay2_apply]

/-- The printed index maps, decided over the grid: every window's block at point `t` is slab `t`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem tlt (t : Fin cfg0.N) : t.val < 4 := by have := t.isLt; have h : cfg0.N = 4 := N_0; omega

/-- The `K` block at point `t` is batch `t` of the `K` array. -/
theorem iblk0_apply (c : Dev nD) (t : Fin cfg0.N) (j : Fin 4096) (e : Fin 64) :
    (iblk m c 0 t : Vec Ideal S1x4096x64 .f32) (ix3 (0 : Fin 1) j e)
      = (V m c main_arg1 : S4x4096x64.Idx → EReal) (ix3 (⟨t.val, tlt t⟩ : Fin 4) j e) := by
  obtain ⟨⟨a0, a1, a2⟩, -⟩ := idx_facts t
  unfold iblk
  rw [View.read_apply]
  show V m c main_arg1 _ = V m c main_arg1 _
  refine congrArg _ ?_
  funext a; apply Fin.ext
  match a with
  | ⟨0, _⟩ => show win0_0.index t 0 * 1 + 1 * (0 : ℕ) = t.val; omega
  | ⟨1, _⟩ => show win0_0.index t 1 * 4096 + 1 * j.val = j.val; omega
  | ⟨2, _⟩ => show win0_0.index t 2 * 64 + 1 * e.val = e.val; omega

/-- The `V` block at point `t` is batch `t` of the `V` array. -/
theorem iblk1_apply (c : Dev nD) (t : Fin cfg0.N) (j : Fin 4096) (e : Fin 64) :
    (iblk m c 1 t : Vec Ideal S1x4096x64 .f32) (ix3 (0 : Fin 1) j e)
      = (V m c main_arg2 : S4x4096x64.Idx → EReal) (ix3 (⟨t.val, tlt t⟩ : Fin 4) j e) := by
  obtain ⟨-, ⟨a0, a1, a2⟩, -⟩ := idx_facts t
  unfold iblk
  rw [View.read_apply]
  show V m c main_arg2 _ = V m c main_arg2 _
  refine congrArg _ ?_
  funext a; apply Fin.ext
  match a with
  | ⟨0, _⟩ => show win0_1.index t 0 * 1 + 1 * (0 : ℕ) = t.val; omega
  | ⟨1, _⟩ => show win0_1.index t 1 * 4096 + 1 * j.val = j.val; omega
  | ⟨2, _⟩ => show win0_1.index t 2 * 64 + 1 * e.val = e.val; omega

/-- The packed `Q` block at point `t` is batch `t` of the packed `Q` array. -/
theorem iblk2_apply (c : Dev nD) (t : Fin cfg0.N) (r : Fin 2048) (n : Fin 128) :
    (iblk m c 2 t : Vec Ideal S1x2048x128 .f32) (ix3 (0 : Fin 1) r n)
      = (V m c main_v0 : S4x2048x128.Idx → EReal) (ix3 (⟨t.val, tlt t⟩ : Fin 4) r n) := by
  obtain ⟨-, -, ⟨a0, a1, a2⟩, -⟩ := idx_facts t
  unfold iblk
  rw [View.read_apply]
  show V m c main_v0 _ = V m c main_v0 _
  refine congrArg _ ?_
  funext a; apply Fin.ext
  match a with
  | ⟨0, _⟩ => show win0_2.index t 0 * 1 + 1 * (0 : ℕ) = t.val; omega
  | ⟨1, _⟩ => show win0_2.index t 1 * 2048 + 1 * r.val = r.val; omega
  | ⟨2, _⟩ => show win0_2.index t 2 * 128 + 1 * n.val = n.val; omega

/-- The packed product of the arrays as the region finds them. -/
abbrev Hreg (c : Dev nD) : S4x2048x128.Idx → EReal :=
  Cert.Spec.H (V m c main_v0) (V m c main_arg1) (V m c main_arg2)

/-- WHAT POINT `t` WRITES BACK is slab `t` of the packed product. -/
theorem flushed_eq (c : Dev nD) (t : Fin cfg0.N) :
    (dats m 0 c).flushed 3 t = ((cfg0.win 3).blk t).view.read (Elt Ideal) (Hreg m c) := by
  show (cfg0.win 3).cut (grid0.coords t) ((dats m 0 c).after 3 t) = _
  rw [after0_3]
  obtain ⟨-, -, -, ⟨a0, a1, a2⟩⟩ := idx_facts t
  funext y
  obtain ⟨z, r, cc, rfl⟩ : ∃ (z : Fin 1) (r : Fin 2048) (cc : Fin 128), y = ix3 z r cc := ⟨y 0, y 1, y 2, eq_ix3 y⟩
  obtain rfl : z = 0 := Subsingleton.elim _ _
  have hemb : ((cfg0.win 3).blk t).view.emb (ix3 (0 : Fin 1) r cc) = (ix3 (⟨t.val, tlt t⟩ : Fin 4) r cc : S4x2048x128.Idx) := by
    funext a; apply Fin.ext
    match a with
    | ⟨0, _⟩ => show win0_3.index t 0 * 1 + 1 * (0 : ℕ) = t.val; omega
    | ⟨1, _⟩ => show win0_3.index t 1 * 2048 + 1 * r.val = r.val; omega
    | ⟨2, _⟩ => show win0_3.index t 2 * 128 + 1 * cc.val = cc.val; omega
  show out0_3 (iblk m c 0 t) (iblk m c 1 t) (iblk m c 2 t) (ix3 (0 : Fin 1) r cc) = Hreg m c (((cfg0.win 3).blk t).view.emb (ix3 (0 : Fin 1) r cc))
  rw [hemb, out_apply]
  show _ = Cert.Spec.Hc (V m c main_v0) (V m c main_arg1) (V m c main_arg2) (⟨t.val, tlt t⟩ : Fin 4) r cc
  unfold Cert.Spec.Hc Cert.Spec.KV
  simp only [iblk0_apply, iblk1_apply, iblk2_apply]

/-- An index of the packed result is in point `t`'s block iff each coordinate is in the block's range on its axis. -/
theorem mem_blk (t : Fin cfg0.N) (i : S4x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v1).slice (win0_3.rect t)).set ↔ _
  rw [View.set_slice_whole, Rect.mem_set_unit]
  exact Iff.rfl

/-- Every index of the packed result lies in the slab of its batch, which the point of that batch writes back. -/
theorem cover (i : S4x2048x128.Idx) : ∃ t : Fin cfg0.N, (cfg0.win 3).flush t = true ∧ i ∈ ((cfg0.win 3).blk t).view.set := by
  have hN : cfg0.N = 4 := N_0
  have h0 : (i 0).val < 4 := (i 0).isLt
  have h1 : (i 1).val < 2048 := (i 1).isLt
  have h2 : (i 2).val < 128 := (i 2).isLt
  refine ⟨⟨(i 0).val, by omega⟩, flush0_3 _, ?_⟩
  obtain ⟨-, -, -, ⟨a0, a1, a2⟩⟩ := idx_facts ⟨(i 0).val, by omega⟩
  rw [mem_blk]
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    rw [a0]; show (i 0).val * 1 ≤ (i 0).val ∧ (i 0).val < (i 0).val * 1 + 1; omega
  | ⟨1, _⟩ =>
    show win0_3.index ⟨(i 0).val, _⟩ (1 : Fin 3) * 2048 ≤ (i 1).val ∧ (i 1).val < win0_3.index ⟨(i 0).val, _⟩ (1 : Fin 3) * 2048 + 2048
    rw [a1]; omega
  | ⟨2, _⟩ =>
    show win0_3.index ⟨(i 0).val, _⟩ (2 : Fin 3) * 128 ≤ (i 2).val ∧ (i 2).val < win0_3.index ⟨(i 0).val, _⟩ (2 : Fin 3) * 128 + 128
    rw [a2]; omega

/-- THE PACKED RESULT after the region: the packed product of the arrays as the region finds them. -/
theorem final (c : Dev nD) : (dats m 0 c).arrAt 3 cfg0.N = Hreg m c :=
  (dats m 0 c).arrAt_eq_of_cover 3 (Hreg m c) (fun t _ => flushed_eq m c t) cover

/-- The host line before the region packs `Q`. -/
theorem V_main_v0 (c : Dev nD) :
    (V m c main_v0 : S4x2048x128.Idx → EReal)
      = shapeCast S4x2048x128 (m ((c : Thread nD τ).loc main_arg0)) shapeCasts_S4x4096x64_S4x2048x128 := by
  show StableHlo.after hostOps0 (fun b => m (c, b)) (Proc.devRef .tc main_v0) = _
  after_results
  rfl

/-- The host line after the region unpacks the region's result array. -/
theorem tail_main_v2 (c : Dev nD) :
    (Pipeline.afterTail₀ cfgs (dats m) 0 (V0 m) [hostOps1] c main_v2 : S4x4096x64.Idx → EReal)
      = shapeCast S4x4096x64 ((dats m 0 c).arrAt 3 cfg0.N) shapeCasts_S4x2048x128_S4x4096x64 := by
  unfold Pipeline.afterTail₀
  show StableHlo.after hostOps1 _ (Proc.devRef .tc main_v2) = _
  after_results
  exact congrArg (fun x => shapeCast S4x4096x64 x shapeCasts_S4x2048x128_S4x4096x64)
    (Pipeline.withArrays_arr spec0 launch0.win.arr_inj c _ _ 3)

/-- The program's result array: the packed product of the launched arguments, unpacked — `Q (Kᵀ V)`. -/
theorem result_eq (c : Dev nD) :
    (Pipeline.afterTail₀ cfgs (dats m) 0 (V0 m) [hostOps1] c main_v2 : S4x4096x64.Idx → EReal)
      = Cert.Spec.G (m ((c : Thread nD τ).loc main_arg0)) (m ((c : Thread nD τ).loc main_arg1)) (m ((c : Thread nD τ).loc main_arg2)) := by
  rw [tail_main_v2, final]
  unfold Hreg
  rw [V_main_v0, V_main_arg1, V_main_arg2]
  exact Cert.Spec.unpack_H_pack _ _ _ _ _

/-- The frame run, read: the result array ends at `Q (Kᵀ V)` of the launched arguments, which end unchanged. -/
theorem run : θ_run defs (onTc (τ := τ) (main (F := Ideal))) ⟨m, fun _ => 0, ρ⟩ fun r => ∀ c : Dev nD,
      r.2.mem ((c.tc : Thread nD τ).loc main_v2)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.KValue

end
-- ==== Proof.lean ====
/-
  Unnormalised attention, re-associated.

  The reference computes, per batch, `(Q Kᵀ) V`: the 4096 × 4096 score matrix first, then its product with `V`. The
  kernel computes `Q (Kᵀ V)`: the 64 × 64 matrix `Kᵀ V` first (its operands rounded to bf16 on the way into the matrix
  unit, which is the identity on the ideal values), then `Q` against it — with two consecutive rows of `Q` packed side by
  side into 128 lanes and `Kᵀ V` repeated on the diagonal of a 128 × 128 matrix, so that the packed product, unpacked, is
  the plain one. On the extended reals the packing argument needs only `x · 0 = 0` and the commutative-monoid laws of the
  sum (Proof/Spec.lean, `unpack_H_pack`); the re-association distributes products over sums, which is where the
  precondition that every input is finite is used: the entries are real numbers, and `(a Bᵀ) c = a (Bᵀ c)` holds over the
  reals (Proof/Spec.lean, `reassoc`).

  The kernel's result array is read off its frame run (Proof/KernelValue.lean, over Proof/Payload.lean and
  Proof/BlockMask.lean); the reference's off its run read back at an index (Proof/RefValue.lean); finiteness off the
  printed precondition (Proof/Finite.lean). The ideal pass rewrote nothing, so the idealization claim is trivial.
-/
import proofs.«109282_j61933428410286_2_alg».proof.Defs
import proofs.«109282_j61933428410286_2_alg».proof.Proof.Gen.Kernel
import proofs.«109282_j61933428410286_2_alg».proof.Proof.Gen.Kernel.Skeleton
import proofs.«109282_j61933428410286_2_alg».proof.Proof.Gen.Kernel.Launch
import proofs.«109282_j61933428410286_2_alg».proof.Proof.Gen.Kernel.Points
import proofs.«109282_j61933428410286_2_alg».proof.Proof.Gen.Kernel.Frame
import proofs.«109282_j61933428410286_2_alg».proof.Proof.Gen.KernelIdeal
import proofs.«109282_j61933428410286_2_alg».proof.Proof.Gen.KernelIdeal.Skeleton
import proofs.«109282_j61933428410286_2_alg».proof.Proof.Gen.KernelIdeal.Launch
import proofs.«109282_j61933428410286_2_alg».proof.Proof.Gen.KernelIdeal.Points
import proofs.«109282_j61933428410286_2_alg».proof.Proof.Gen.KernelIdeal.Frame
import proofs.«109282_j61933428410286_2_alg».proof.Proof.Gen.ReferenceIdeal
import proofs.«109282_j61933428410286_2_alg».proof.Proof.Gen.Pre_finite_inputs
import proofs.«109282_j61933428410286_2_alg».proof.Proof.Gen.ReferenceIdeal.Run
import proofs.«109282_j61933428410286_2_alg».proof.Proof.Gen.ReferenceIdeal.Read
import proofs.«109282_j61933428410286_2_alg».proof.Proof.Finite
import proofs.«109282_j61933428410286_2_alg».proof.Proof.Spec
import proofs.«109282_j61933428410286_2_alg».proof.Proof.RefValue
import proofs.«109282_j61933428410286_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

/-- Both programs end with `Q (Kᵀ V)` of the arguments: the kernel computes it in that order, and the reference's
    `(Q Kᵀ) V` equals it because every entry of the finite inputs is a real number. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  obtain ⟨hq, hk, hv⟩ := Cert.Finite.real_of_pre _ _ _ (hpre c)
  rw [(h c).1, Cert.ReferenceIdeal.Read.val_main_v1_eq, (hagree c).1, (hagree c).2.1, (hagree c).2.2]
  exact Cert.ReferenceIdeal.RefValue.val_eq_G _ _ _ hq hk hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
